-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S2048x2048 : Shape := ⟨2, ![2048, 2048]⟩
abbrev S2048 : Shape := ⟨1, ![2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_arg5 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S8x2048x2048 .f32) (main_arg1 : FVec F S2048x2048 .f32) (main_arg2 : FVec F S2048 .f32) (main_arg3 : FVec F S2048 .f32) (main_arg4 : FVec F S2048 .f32) (main_arg5 : FVec F S2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_v13 main_v16
-- ==== Kernel.lean ====
abbrev S8x2048x2048 : Shape := ⟨3, ![8, 2048, 2048]⟩
abbrev S2048x2048 : Shape := ⟨2, ![2048, 2048]⟩
abbrev S2048 : Shape := ⟨1, ![2048]⟩
abbrev S16384x2048 : Shape := ⟨2, ![16384, 2048]⟩
abbrev S_ : Shape := ⟨0, ![]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 21
  | .vmem => 9
  | .smem => 0
  | _ => 0

abbrev bufTy : (tb : Table) → Fin (tcTables nBuf tb) → BufTy
  | .hbm, ⟨0, _⟩ => ⟨S8x2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S16384x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S2048x2048, .f32⟩
  | .hbm, ⟨11, _⟩ => ⟨S_, .f32⟩
  | .hbm, ⟨12, _⟩ => ⟨S_, .f32⟩
  | .hbm, ⟨13, _⟩ => ⟨S2048, .f32⟩
  | .hbm, ⟨14, _⟩ => ⟨S2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S16384x2048, .f32⟩
  | .hbm, ⟨20, _⟩ => ⟨S8x2048x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x2048x2048_S16384x2048 : S8x2048x2048.ShapeCasts S16384x2048
  transposes_S2048x2048_S2048x2048_1_0 : S2048x2048.Transposes [1, 0] S2048x2048
  bitsLt_bf16_f32 : FTy.bits .bf16 < FTy.bits .f32
  reducesTo_S2048x2048_S_d0_1 : S2048x2048.ReducesTo [0, 1] S_
  h_S_ : 0 < S_.numel
  bcast_S_S2048 : S_.BroadcastsInDim S2048 (![] : Fin 0 → Fin S2048.rank)
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S16384x2048_S8x2048x2048 : S16384x2048.ShapeCasts S8x2048x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S16384x2048.size a
  hwx0_6 : ∀ i : grid0.Coords, EltTy.bits .f32 = 32 ∨ (Rect.block (s := S16384x2048) S512x2048.size (cc0_transform_6 i) (hinb0_6 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S2048x2048 : Shape := ⟨2, ![2048, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x1, .f32⟩
  | .hbm, ⟨27, _⟩ => ⟨S8x2048x2048, .f32⟩
  | .hbm, ⟨28, _⟩ => ⟨S8x2048x2048, .f32⟩
  | .hbm, ⟨29, _⟩ => ⟨S1x1x2048, .f32⟩
  | .hbm, ⟨30, _⟩ => ⟨S8x2048x2048, .f32⟩
  | .hbm, ⟨31, _⟩ => ⟨S8x2048x2048, .f32⟩
  | .hbm, ⟨32, _⟩ => ⟨S1x1x2048, .f32⟩
  | .hbm, ⟨33, _⟩ => ⟨S8x2048x2048, .f32⟩
  | .hbm, ⟨34, _⟩ => ⟨S8x2048x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S_, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S1x1x2048, .f32⟩
  | .hbm, ⟨43, _⟩ => ⟨S8x2048x2048, .f32⟩
  | .hbm, ⟨44, _⟩ => ⟨S8x2048x2048, .f32⟩
  | .hbm, ⟨45, _⟩ => ⟨S1x1x2048, .f32⟩
  | .hbm, ⟨46, _⟩ => ⟨S8x2048x2048, .f32⟩
  | .hbm, ⟨47, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x2048_0_1_2 : S8x2048x1.BroadcastsInDim S8x2048x2048 (![0, 1, 2] : Fin 3 → Fin S8x2048x2048.rank)
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  reducesTo_S2048x2048_S_d0_1 : S2048x2048.ReducesTo [0, 1] S_
  bcast_S_S8x2048x2048 : S_.BroadcastsInDim S8x2048x2048 (![] : Fin 0 → Fin S8x2048x2048.rank)
  dot_S8x2048x2048_S2048x2048_S8x2048x2048_2_1_01_0_n_n_wf : DotDims.WF S8x2048x2048 S2048x2048 S8x2048x2048 [2] [1] [0, 1] [0] [] []

variable [Facts₀]

def dot_S8x2048x2048_S2048x2048_S8x2048x2048_2_1_01_0_n_n : DotDims S8x2048x2048 S2048x2048 S8x2048x2048 where
  lhsContracting := [2]
  rhsContracting := [1]
  lhsNonContracting := [0, 1]
  rhsNonContracting := [0]
  lhsBatch := []
  rhsBatch := []
  wf := dot_S8x2048x2048_S2048x2048_S8x2048x2048_2_1_01_0_n_n_wf

class Facts : Prop extends Facts₀ where

variable [Facts]
-- ==== Proof.Spec.lean ====
/-
  One output entry of the layer, on the extended reals.

  A row `r` of 2048 numbers is centred on its mean and scaled by the reciprocal square root of its variance plus a small
  offset; each entry is then scaled by a per-column weight `lnw` and shifted by `lnb` (a layer normalisation). The
  normalised row is contracted with one column `wcol` of a sign matrix, and the result is scaled by `sg` and shifted
  by `b`. The mean and the variance divide the row sums by the float 2048; the offset is the float nearest 1e-5. Both
  literals are kept as the words the two programs print: they are the same words on both sides and are never evaluated.
-/
import Idealize.ShloMosaic.PureOps.Ideal.Laws
import Idealize.ShloMosaic.Lib.ValueIdx

noncomputable section

namespace Cert.BitLinear

open Idealize.ShloMosaic

/-- The row length, the float 2048. -/
abbrev len : EReal := Ideal.ofBits .f32 0x45000000#32
/-- The variance offset, the float nearest 1e-5. -/
abbrev eps : EReal := Ideal.ofBits .f32 0x3727C5AC#32

/-- The mean of a row: its sum divided by the row length. -/
def mean (r : Fin 2048 → EReal) : EReal := Ideal.div (∑ k, r k) len

/-- The variance of a row: the mean of the squared deviations from the mean. -/
def var (r : Fin 2048 → EReal) : EReal := Ideal.div (∑ k, (r k - mean r) * (r k - mean r)) len

/-- The reciprocal standard deviation of a row, the variance offset added under the root. -/
def istd (r : Fin 2048 → EReal) : EReal := Ideal.rsqrt (var r + eps)

/-- Entry `k` of the normalised row: centred, scaled by the reciprocal standard deviation, then by `lnw k`, shifted by `lnb k`. -/
def normed (r lnw lnb : Fin 2048 → EReal) (k : Fin 2048) : EReal := (r k - mean r) * istd r * lnw k + lnb k

/-- The normalised row contracted with one column of the weight matrix. -/
def proj (r lnw lnb wcol : Fin 2048 → EReal) : EReal := ∑ k, normed r lnw lnb k * wcol k

/-- One output entry: the contraction scaled by `sg` and shifted by `b`. -/
def out (r lnw lnb wcol : Fin 2048 → EReal) (sg b : EReal) : EReal := proj r lnw lnb wcol * sg + b

/-! ## The weight matrix's scale -/

/-- Reducing a 2048 × 2048 matrix over both axes leaves a scalar. -/
theorem reducesAll : Shape.ReducesTo (⟨2, ![2048, 2048]⟩ : Shape) [0, 1] ⟨0, ![]⟩ := by decide

/-- The largest absolute value of the weight matrix's entries: the host's maximum over both axes, from minus infinity, of
    the entrywise absolute values. Both programs compute it by the same host operations on the same matrix, so it is
    carried as one term and never opened. -/
def absmax (w : FVec Ideal ⟨2, ![2048, 2048]⟩ .f32) : EReal :=
  Host.reduce (FloatOps.maximumf (F := Ideal) (φ := .f32)) (Host.absf w) (constant (F := Ideal) ⟨0, ![]⟩ .f32 0xFF800000#32)
    reducesAll (by decide) ValueIdx.ix0

/-! ## The layer's result, entry by entry -/

/-- Entry (i, j, o) of the layer's result on an 8 × 2048 × 2048 input `x`: row (i, j) of `x` normalised with the weight
    rows `lnw`, `lnb`, contracted with row `o` of the sign matrix `sw`, scaled by `s` times `gam o` and shifted by `bet o`. -/
def layer (x : FVec Ideal ⟨3, ![8, 2048, 2048]⟩ .f32) (sw : FVec Ideal ⟨2, ![2048, 2048]⟩ .f32)
    (gam bet lnw lnb : FVec Ideal ⟨1, ![2048]⟩ .f32) (s : EReal) (i : Fin 8) (j : Fin 2048) (o : Fin 2048) : EReal :=
  out (fun k => x (ValueIdx.ix3 i j k)) (fun k => lnw (ValueIdx.ix1 k)) (fun k => lnb (ValueIdx.ix1 k))
    (fun k => sw (ValueIdx.ix2 o k)) (s * gam (ValueIdx.ix1 o)) (bet (ValueIdx.ix1 o))

/-- The same as an array over the result's index set. -/
def layerArr (x : FVec Ideal ⟨3, ![8, 2048, 2048]⟩ .f32) (sw : FVec Ideal ⟨2, ![2048, 2048]⟩ .f32)
    (gam bet lnw lnb : FVec Ideal ⟨1, ![2048]⟩ .f32) (s : EReal) : FVec Ideal ⟨3, ![8, 2048, 2048]⟩ .f32 :=
  fun i => layer x sw gam bet lnw lnb s ⟨(i 0).val, (i 0).isLt⟩ ⟨(i 1).val, (i 1).isLt⟩ ⟨(i 2).val, (i 2).isLt⟩

end Cert.BitLinear

end
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.KernelBody.lean ====
/-
  What the kernel body stores at entry (p, q) of its 512 × 2048 block, on the extended reals.

  The body reads a block `x` of 512 rows, two rows `lw`, `lb` of per-column normalisation weights, the whole
  2048 × 2048 sign matrix `w` (stored transposed: entry (k, q) multiplies entry k of a row into output column q), and two
  rows `sg`, `b` of output scales and shifts. Row p of the stored block depends on row p of `x` only: the row is
  normalised (mean and variance are lane sums over the row's 2048 entries, kept as columns of one entry per row and
  broadcast back along the row), the normalised row is contracted with column q of `w`, and the result is scaled by
  `sg q` and shifted by `b q`. That is `BitLinear.out` of the row. The rounding of the normalised block to a shorter
  float format before the matrix product is the identity on the extended reals.
-/
import proofs.«161648_j86689619903495_2_alg».proof.Proof.Gen.KernelIdeal.Skeleton
import proofs.«161648_j86689619903495_2_alg».proof.Proof.Spec
import proofs.«161648_j86689619903495_2_alg».proof.Proof.LibColumn
import proofs.«161648_j86689619903495_2_alg».proof.Proof.LibRowSum
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.BitLinear

/-! ## The row statistics, as columns -/

/-- The row means, one entry per row. -/
def meanCol (x : FVec Ideal S512x2048 .f32) : FVec Ideal S512x1 .f32 :=
  divf (shapeCast S512x1 (multiReduction .add [1] S512 x 0x00000000#32 reduces_S512x2048_S512 (.inl rfl) rfl) shapeCasts_S512_S512x1)
    (broadcast S512x1 (Scalar.ofBits .f32 0x45000000#32))

/-- Row `p` of the mean column is the mean of row `p`. -/
theorem meanCol_apply (x : FVec Ideal S512x2048 .f32) (p : Fin 512) (u : Fin 1) :
    meanCol x (ix2 p u) = mean (fun k => x (ix2 p k)) := by
  unfold meanCol mean
  show Ideal.div (shapeCast S512x1 _ shapeCasts_S512_S512x1 (ix2 p u)) (Ideal.ofBits .f32 0x45000000#32) = _
  refine congrArg (fun z => Ideal.div z _) ?_
  exact (shapeCast_a_a1_apply _ _ p u).trans (multiReduction_add_rows_apply x _ _ _ p)

/-- The block with each row's mean subtracted. -/
def cenMat (x : FVec Ideal S512x2048 .f32) : FVec Ideal S512x2048 .f32 :=
  subf x (broadcastTo S512x2048 (meanCol x) broadcasts_S512x1_S512x2048)

/-- Entry (p, k) of the centred block is the row's entry less the row's mean. -/
theorem cenMat_apply (x : FVec Ideal S512x2048 .f32) (p : Fin 512) (k : Fin 2048) :
    cenMat x (ix2 p k) = x (ix2 p k) - mean (fun k => x (ix2 p k)) := by
  unfold cenMat
  show x (ix2 p k) - broadcastTo S512x2048 (meanCol x) broadcasts_S512x1_S512x2048 (ix2 p k) = _
  refine congrArg (x (ix2 p k) - ·) ?_
  exact (broadcastTo_a1_ab_apply _ _ p k).trans (meanCol_apply x p 0)

/-- The row variances, one entry per row. -/
def varCol (x : FVec Ideal S512x2048 .f32) : FVec Ideal S512x1 .f32 :=
  divf (shapeCast S512x1 (multiReduction .add [1] S512 (mulf (cenMat x) (cenMat x)) 0x00000000#32 reduces_S512x2048_S512 (.inl rfl) rfl) shapeCasts_S512_S512x1)
    (broadcast S512x1 (Scalar.ofBits .f32 0x45000000#32))

/-- Row `p` of the variance column is the variance of row `p`. -/
theorem varCol_apply (x : FVec Ideal S512x2048 .f32) (p : Fin 512) (u : Fin 1) :
    varCol x (ix2 p u) = var (fun k => x (ix2 p k)) := by
  unfold varCol var
  show Ideal.div (shapeCast S512x1 _ shapeCasts_S512_S512x1 (ix2 p u)) (Ideal.ofBits .f32 0x45000000#32) = _
  refine congrArg (fun z => Ideal.div z _) ?_
  refine ((shapeCast_a_a1_apply _ _ p u).trans (multiReduction_add_rows_apply _ _ _ _ p)).trans ?_
  refine Finset.sum_congr rfl fun k _ => ?_
  show cenMat x (ix2 p k) * cenMat x (ix2 p k) = _
  rw [cenMat_apply]

/-- The rows' reciprocal standard deviations, one entry per row. -/
def istdCol (x : FVec Ideal S512x2048 .f32) : FVec Ideal S512x1 .f32 :=
  rsqrt (addf (varCol x) (broadcast S512x1 (Scalar.ofBits .f32 0x3727C5AC#32)))

/-- Row `p` of that column is the reciprocal standard deviation of row `p`. -/
theorem istdCol_apply (x : FVec Ideal S512x2048 .f32) (p : Fin 512) (u : Fin 1) :
    istdCol x (ix2 p u) = istd (fun k => x (ix2 p k)) := by
  unfold istdCol istd
  show Ideal.rsqrt (varCol x (ix2 p u) + Ideal.ofBits .f32 0x3727C5AC#32) = _
  rw [varCol_apply]

/-! ## The normalised block -/

/-- The block normalised row by row, scaled by the weight row `lw` and shifted by the row `lb`. -/
def normedMat (x : FVec Ideal S512x2048 .f32) (lw lb : FVec Ideal S1x2048 .f32) : FVec Ideal S512x2048 .f32 :=
  addf (mulf (mulf (cenMat x) (broadcastTo S512x2048 (istdCol x) broadcasts_S512x1_S512x2048))
    (broadcastTo S512x2048 lw broadcasts_S1x2048_S512x2048)) (broadcastTo S512x2048 lb broadcasts_S1x2048_S512x2048)

/-- Entry (p, k) of the normalised block is entry `k` of the normalised row `p`. -/
theorem normedMat_apply (x : FVec Ideal S512x2048 .f32) (lw lb : FVec Ideal S1x2048 .f32) (p : Fin 512) (k : Fin 2048) :
    normedMat x lw lb (ix2 p k)
      = normed (fun k => x (ix2 p k)) (fun k => lw (ix2 (0 : Fin 1) k)) (fun k => lb (ix2 (0 : Fin 1) k)) k := by
  unfold normedMat normed
  show cenMat x (ix2 p k) * broadcastTo S512x2048 (istdCol x) broadcasts_S512x1_S512x2048 (ix2 p k)
      * broadcastTo S512x2048 lw broadcasts_S1x2048_S512x2048 (ix2 p k)
      + broadcastTo S512x2048 lb broadcasts_S1x2048_S512x2048 (ix2 p k) = _
  rw [cenMat_apply, broadcastTo_a1_ab_apply, istdCol_apply, broadcastTo_1b_ab_apply, broadcastTo_1b_ab_apply]

/-! ## The matrix product -/

/-- The index of the left factor at output entry `j` and contraction coordinate `k`: row `j 0`, column `k`. -/
theorem lhs_row (j : S512x2048.Idx) (q : dot_S512x2048_S2048x2048_S512x2048_1_0_0_1_n_n.contr.Idx) :
    (dot_S512x2048_S2048x2048_S512x2048_1_0_0_1_n_n.lhsIdx j q 0).val = (j 0).val := by
  unfold DotDims.lhsIdx
  rw [dif_neg (show ¬(0 : Fin S512x2048.rank) ∈ dot_S512x2048_S2048x2048_S512x2048_1_0_0_1_n_n.lhsBatch by decide),
    dif_pos (show (0 : Fin S512x2048.rank) ∈ dot_S512x2048_S2048x2048_S512x2048_1_0_0_1_n_n.lhsNonContracting by decide)]
  rfl
theorem lhs_col (j : S512x2048.Idx) (q : dot_S512x2048_S2048x2048_S512x2048_1_0_0_1_n_n.contr.Idx) :
    (dot_S512x2048_S2048x2048_S512x2048_1_0_0_1_n_n.lhsIdx j q 1).val = (q ⟨0, by decide⟩).val :=
  dot_S512x2048_S2048x2048_S512x2048_1_0_0_1_n_n.lhsIdx_val_of_single rfl j q
/-- The index of the right factor: row `k`, column `j 1`. -/
theorem rhs_row (j : S512x2048.Idx) (q : dot_S512x2048_S2048x2048_S512x2048_1_0_0_1_n_n.contr.Idx) :
    (dot_S512x2048_S2048x2048_S512x2048_1_0_0_1_n_n.rhsIdx j q 0).val = (q ⟨0, by decide⟩).val :=
  dot_S512x2048_S2048x2048_S512x2048_1_0_0_1_n_n.rhsIdx_val_of_single rfl j q
theorem rhs_col (j : S512x2048.Idx) (q : dot_S512x2048_S2048x2048_S512x2048_1_0_0_1_n_n.contr.Idx) :
    (dot_S512x2048_S2048x2048_S512x2048_1_0_0_1_n_n.rhsIdx j q 1).val = (j 1).val := by
  unfold DotDims.rhsIdx
  rw [dif_neg (show ¬(1 : Fin S2048x2048.rank) ∈ dot_S512x2048_S2048x2048_S512x2048_1_0_0_1_n_n.rhsBatch by decide),
    dif_pos (show (1 : Fin S2048x2048.rank) ∈ dot_S512x2048_S2048x2048_S512x2048_1_0_0_1_n_n.rhsNonContracting by decide)]
  rfl

/-- The matrix product into the zero accumulator, at entry (p, q): the sum over `k` of the left factor's entry (p, k)
    times the right factor's entry (k, q). -/
theorem matmul_zero_apply (L : FVec Ideal S512x2048 .bf16) (R : FVec Ideal S2048x2048 .bf16) (p : Fin 512) (q : Fin 2048) :
    matmul dot_S512x2048_S2048x2048_S512x2048_1_0_0_1_n_n none L R (constant S512x2048 .f32 0x00000000#32) (ix2 p q)
      = ∑ k : Fin 2048, L (ix2 p k) * R (ix2 k q) := by
  simp only [matmul]
  rw [Ideal.matmul_constant_zero_apply,
    ← Equiv.sum_comp (contrEquiv1 dot_S512x2048_S2048x2048_S512x2048_1_0_0_1_n_n 2048 rfl rfl).symm]
  refine Finset.sum_congr rfl fun k _ => ?_
  have hk := contrEquiv1_symm_val dot_S512x2048_S2048x2048_S512x2048_1_0_0_1_n_n 2048 rfl rfl k
  have el : dot_S512x2048_S2048x2048_S512x2048_1_0_0_1_n_n.lhsIdx (ix2 p q)
      ((contrEquiv1 dot_S512x2048_S2048x2048_S512x2048_1_0_0_1_n_n 2048 rfl rfl).symm k) = ix2 p k :=
    funext fun a => Fin.ext (by
      match a with
      | ⟨0, _⟩ => exact lhs_row _ _
      | ⟨1, _⟩ => exact (lhs_col _ _).trans hk)
  have er : dot_S512x2048_S2048x2048_S512x2048_1_0_0_1_n_n.rhsIdx (ix2 p q)
      ((contrEquiv1 dot_S512x2048_S2048x2048_S512x2048_1_0_0_1_n_n 2048 rfl rfl).symm k) = ix2 k q :=
    funext fun a => Fin.ext (by
      match a with
      | ⟨0, _⟩ => exact (rhs_row _ _).trans hk
      | ⟨1, _⟩ => exact rhs_col _ _)
  rw [el, er]

/-! ## The stored value -/

/-- The body's stored value, its identity reshapes dropped, over the named pieces. -/
theorem pay_eq (x0 : FVec Ideal S512x2048 .f32) (x1 x2 : FVec Ideal S1x2048 .f32) (x3 : FVec Ideal S2048x2048 .bf16)
    (x4 x5 : FVec Ideal S1x2048 .f32) :
    k0_pay1 (F := Ideal) x0 x1 x2 x3 x4 x5
      = addf (mulf (matmul dot_S512x2048_S2048x2048_S512x2048_1_0_0_1_n_n none
            (truncf .bf16 (normedMat x0 x1 x2) bitsLt_bf16_f32) x3 (constant S512x2048 .f32 0x00000000#32))
          (broadcastTo S512x2048 x4 broadcasts_S1x2048_S512x2048)) (broadcastTo S512x2048 x5 broadcasts_S1x2048_S512x2048) := by
  unfold k0_pay1
  simp only [shapeCast_self]
  rfl

/-- Entry (p, q) of the stored block: `BitLinear.out` of row `p` of `x0`, the weight rows, column `q` of the matrix, and
    entry `q` of the scale and shift rows. -/
theorem pay_apply (x0 : FVec Ideal S512x2048 .f32) (x1 x2 : FVec Ideal S1x2048 .f32) (x3 : FVec Ideal S2048x2048 .bf16)
    (x4 x5 : FVec Ideal S1x2048 .f32) (p : Fin 512) (q : Fin 2048) :
    k0_pay1 (F := Ideal) x0 x1 x2 x3 x4 x5 (ix2 p q)
      = out (fun k => x0 (ix2 p k)) (fun k => x1 (ix2 (0 : Fin 1) k)) (fun k => x2 (ix2 (0 : Fin 1) k))
          (fun k => x3 (ix2 k q)) (x4 (ix2 (0 : Fin 1) q)) (x5 (ix2 (0 : Fin 1) q)) := by
  rw [pay_eq]
  unfold out proj
  show matmul dot_S512x2048_S2048x2048_S512x2048_1_0_0_1_n_n none
        (truncf .bf16 (normedMat x0 x1 x2) bitsLt_bf16_f32) x3 (constant S512x2048 .f32 0x00000000#32) (ix2 p q)
      * broadcastTo S512x2048 x4 broadcasts_S1x2048_S512x2048 (ix2 p q)
      + broadcastTo S512x2048 x5 broadcasts_S1x2048_S512x2048 (ix2 p q) = _
  rw [matmul_zero_apply, broadcastTo_1b_ab_apply, broadcastTo_1b_ab_apply]
  refine congrArg (fun z => z * _ + _) (Finset.sum_congr rfl fun k _ => ?_)
  show normedMat x0 x1 x2 (ix2 p k) * x3 (ix2 k q) = _
  rw [normedMat_apply]

end Cert.KernelIdeal.Body

end
-- ==== Proof.KernelBlocks.lean ====
/-
  From blocks to the array: what the region leaves in its output array.

  The region runs the body at 32 grid points. At point `t` the body sees rows 512·t … 512·t + 511 of the region's first
  operand (a 16384 × 2048 matrix) and the whole of its five other operands, and writes back rows 512·t … 512·t + 511 of the
  output. Since row `p` of what the body stores depends on row `p` of its first block only (`Body.pay_apply`), every point
  writes back its block of ONE function of the operand arrays, `regionArr`: entry (r, q) is `BitLinear.out` of row `r` of
  the first operand. The 32 blocks tile the output, so the array ends holding that function.
-/
import proofs.«161648_j86689619903495_2_alg».proof.Proof.Gen.KernelIdeal.Frame
import proofs.«161648_j86689619903495_2_alg».proof.Proof.KernelBody
import Idealize.ShloMosaic.Lib.Pipeline.Value

noncomputable section

namespace Cert.KernelIdeal.Blocks

open Cert.KernelIdeal Cert.KernelIdeal.Gen Cert.KernelIdeal.Body Idealize.ShloMosaic Idealize.ShloMosaic.TcCoe Idealize.SL.Sem
open Idealize.ShloMosaic.ValueIdx Cert.BitLinear
open Idealize.ShloMosaic.Pipeline (Dat)

/-! ## The region's result as one function of its operand arrays -/

/-- Entry (r, q) of the region's result: `BitLinear.out` of row `r` of the first operand, the two normalisation rows,
    column `q` of the matrix, and entry `q` of the scale and shift rows. -/
def regionAt (a0 : FVec Ideal S16384x2048 .f32) (a1 a2 : FVec Ideal S1x2048 .f32) (a3 : FVec Ideal S2048x2048 .bf16)
    (a4 a5 : FVec Ideal S1x2048 .f32) (r : Fin 16384) (q : Fin 2048) : EReal :=
  out (fun k => a0 (ix2 r k)) (fun k => a1 (ix2 (0 : Fin 1) k)) (fun k => a2 (ix2 (0 : Fin 1) k))
    (fun k => a3 (ix2 k q)) (a4 (ix2 (0 : Fin 1) q)) (a5 (ix2 (0 : Fin 1) q))

/-- The same as an array over the output's index set. -/
def regionArr (a0 : FVec Ideal S16384x2048 .f32) (a1 a2 : FVec Ideal S1x2048 .f32) (a3 : FVec Ideal S2048x2048 .bf16)
    (a4 a5 : FVec Ideal S1x2048 .f32) : FVec Ideal S16384x2048 .f32 :=
  fun i => regionAt a0 a1 a2 a3 a4 a5 ⟨(i 0).val, (i 0).isLt⟩ ⟨(i 1).val, (i 1).isLt⟩

/-- A block `B0` that holds rows 512·T … of `a0`, run through the body with the whole other operands, gives at its entry
    `j` the result's entry at row 512·T + `j 0`, column `j 1`. -/
theorem block_entry (B0 : FVec Ideal S512x2048 .f32) (a0 : FVec Ideal S16384x2048 .f32) (a1 a2 : FVec Ideal S1x2048 .f32)
    (a3 : FVec Ideal S2048x2048 .bf16) (a4 a5 : FVec Ideal S1x2048 .f32) (j : S512x2048.Idx) (i : S16384x2048.Idx) (T : Nat)
    (h0 : ∀ (y : S512x2048.Idx) (i' : S16384x2048.Idx), (i' 0).val = T * 512 + (y 0).val → (i' 1).val = (y 1).val → B0 y = a0 i')
    (hi0 : (i 0).val = T * 512 + (j 0).val) (hi1 : (i 1).val = (j 1).val) :
    k0_pay1 (F := Ideal) B0 a1 a2 a3 a4 a5 j = regionArr a0 a1 a2 a3 a4 a5 i := by
  obtain ⟨p, q, rfl⟩ : ∃ (p : Fin 512) (q : Fin 2048), j = ix2 p q := ⟨j 0, j 1, eq_ix2 j⟩
  rw [pay_apply]
  unfold regionArr regionAt
  have hq : (⟨(i 1).val, (i 1).isLt⟩ : Fin 2048) = q := Fin.ext hi1
  rw [hq]
  refine congrArg (fun r => out r _ _ _ _ _) (funext fun k => ?_)
  exact h0 (ix2 p k) (ix2 ⟨(i 0).val, (i 0).isLt⟩ k) hi0 rfl

/-! ## The windows' blocks -/

theorem hz : (![0, 0] : Fin 2 → Nat) = fun _ => 0 := funext fun a => by fin_cases a <;> rfl

/-- The printed index maps, decided over the 32 grid points: the first operand and the output move one block of rows per
    point, the five other operands stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Every block of output rows is some point's. -/
theorem idx_onto : ∀ q0 : Fin 32, ∃ t : Fin cfg0.N, win0_6.index t = ![q0.val, 0] :=
  (by decide +kernel : ∀ q0 : Fin 32, ∃ t : Fin grid0.N, win0_6.index t = ![q0.val, 0])

/-! ## Reading the windows' blocks off any array

Stated for an arbitrary array: which entries a block reads depends on the window's index map alone, not on what the array
holds. -/

/-- The first operand's block at point `t`, read off an array `A`, holds rows 512·t … of `A`. -/
theorem read_blk0 (t : Fin cfg0.N) (A : FVec Ideal S16384x2048 .f32) (y : S512x2048.Idx) (i : S16384x2048.Idx)
    (h0 : (i 0).val = t.val * 512 + (y 0).val) (h1 : (i 1).val = (y 1).val) :
    (((cfg0.win 0).blk t).view.read (Elt Ideal) A : FVec Ideal S512x2048 .f32) y = A i := by
  obtain ⟨e0, e1, -⟩ := idx_facts t
  rw [View.read_apply]
  show A _ = A _
  refine congrArg A (funext fun a => Fin.ext ?_)
  match a with
  | ⟨0, _⟩ => show win0_0.index t (0 : Fin 2) * 512 + 1 * (y 0).val = (i 0).val; omega
  | ⟨1, _⟩ => show win0_0.index t (1 : Fin 2) * 2048 + 1 * (y 1).val = (i 1).val; omega

/-- Each of the five other operands' blocks is the whole array, at every point. -/
theorem read_blk1 (t : Fin cfg0.N) (A : FVec Ideal S1x2048 .f32) :
    (((cfg0.win 1).blk t).view.read (Elt Ideal) A : FVec Ideal S1x2048 .f32) = A := by
  obtain ⟨-, -, e0, e1, -⟩ := idx_facts t
  funext y
  rw [View.read_apply]
  show A _ = A y
  refine congrArg A (funext fun a => Fin.ext ?_)
  match a with
  | ⟨0, _⟩ => show win0_1.index t (0 : Fin 2) * 1 + 1 * (y 0).val = (y 0).val; omega
  | ⟨1, _⟩ => show win0_1.index t (1 : Fin 2) * 2048 + 1 * (y 1).val = (y 1).val; omega
theorem read_blk2 (t : Fin cfg0.N) (A : FVec Ideal S1x2048 .f32) :
    (((cfg0.win 2).blk t).view.read (Elt Ideal) A : FVec Ideal S1x2048 .f32) = A := by
  obtain ⟨-, -, -, -, e0, e1, -⟩ := idx_facts t
  funext y
  rw [View.read_apply]
  show A _ = A y
  refine congrArg A (funext fun a => Fin.ext ?_)
  match a with
  | ⟨0, _⟩ => show win0_2.index t (0 : Fin 2) * 1 + 1 * (y 0).val = (y 0).val; omega
  | ⟨1, _⟩ => show win0_2.index t (1 : Fin 2) * 2048 + 1 * (y 1).val = (y 1).val; omega
theorem read_blk3 (t : Fin cfg0.N) (A : FVec Ideal S2048x2048 .bf16) :
    (((cfg0.win 3).blk t).view.read (Elt Ideal) A : FVec Ideal S2048x2048 .bf16) = A := by
  obtain ⟨-, -, -, -, -, -, e0, e1, -⟩ := idx_facts t
  funext y
  rw [View.read_apply]
  show A _ = A y
  refine congrArg A (funext fun a => Fin.ext ?_)
  match a with
  | ⟨0, _⟩ => show win0_3.index t (0 : Fin 2) * 2048 + 1 * (y 0).val = (y 0).val; omega
  | ⟨1, _⟩ => show win0_3.index t (1 : Fin 2) * 2048 + 1 * (y 1).val = (y 1).val; omega
theorem read_blk4 (t : Fin cfg0.N) (A : FVec Ideal S1x2048 .f32) :
    (((cfg0.win 4).blk t).view.read (Elt Ideal) A : FVec Ideal S1x2048 .f32) = A := by
  obtain ⟨-, -, -, -, -, -, -, -, e0, e1, -⟩ := idx_facts t
  funext y
  rw [View.read_apply]
  show A _ = A y
  refine congrArg A (funext fun a => Fin.ext ?_)
  match a with
  | ⟨0, _⟩ => show win0_4.index t (0 : Fin 2) * 1 + 1 * (y 0).val = (y 0).val; omega
  | ⟨1, _⟩ => show win0_4.index t (1 : Fin 2) * 2048 + 1 * (y 1).val = (y 1).val; omega
theorem read_blk5 (t : Fin cfg0.N) (A : FVec Ideal S1x2048 .f32) :
    (((cfg0.win 5).blk t).view.read (Elt Ideal) A : FVec Ideal S1x2048 .f32) = A := by
  obtain ⟨-, -, -, -, -, -, -, -, -, -, e0, e1, -⟩ := idx_facts t
  funext y
  rw [View.read_apply]
  show A _ = A y
  refine congrArg A (funext fun a => Fin.ext ?_)
  match a with
  | ⟨0, _⟩ => show win0_5.index t (0 : Fin 2) * 1 + 1 * (y 0).val = (y 0).val; omega
  | ⟨1, _⟩ => show win0_5.index t (1 : Fin 2) * 2048 + 1 * (y 1).val = (y 1).val; omega

/-! ## What a point writes back, and the array after the region -/

/-- What the body leaves at point `t`, cut to the output's block, when its inputs are the blocks of arrays `A0` … `A5`: the
    output's block of `regionArr` of those arrays. -/
theorem flushed_of (t : Fin cfg0.N) (A0 : FVec Ideal S16384x2048 .f32) (A1 A2 : FVec Ideal S1x2048 .f32)
    (A3 : FVec Ideal S2048x2048 .bf16) (A4 A5 : FVec Ideal S1x2048 .f32) :
    (cfg0.win 6).cut (grid0.coords t) (out0_6 (F := Ideal) (((cfg0.win 0).blk t).view.read (Elt Ideal) A0)
        (((cfg0.win 1).blk t).view.read (Elt Ideal) A1) (((cfg0.win 2).blk t).view.read (Elt Ideal) A2)
        (((cfg0.win 3).blk t).view.read (Elt Ideal) A3) (((cfg0.win 4).blk t).view.read (Elt Ideal) A4)
        (((cfg0.win 5).blk t).view.read (Elt Ideal) A5))
      = ((cfg0.win 6).blk t).view.read (Elt Ideal) (regionArr A0 A1 A2 A3 A4 A5) := by
  unfold out0_6
  rw [View.canon_unit_zero hz]
  simp only [View.ld_unit_zero (S := S512x2048) hz, View.ld_unit_zero (S := S1x2048) hz, View.ld_unit_zero (S := S2048x2048) hz]
  rw [read_blk1 t A1, read_blk2 t A2, read_blk3 t A3, read_blk4 t A4, read_blk5 t A5]
  obtain ⟨-, -, -, -, -, -, -, -, -, -, -, -, e0, e1⟩ := idx_facts t
  funext j
  show k0_pay1 (F := Ideal) (((cfg0.win 0).blk t).view.read (Elt Ideal) A0) A1 A2 A3 A4 A5 j
      = regionArr A0 A1 A2 A3 A4 A5 (((cfg0.win 6).blk t).view.emb j)
  exact block_entry (((cfg0.win 0).blk t).view.read (Elt Ideal) A0) A0 A1 A2 A3 A4 A5
    j (((cfg0.win 6).blk t).view.emb j) t.val (fun y i h0 h1 => read_blk0 t A0 y i h0 h1)
    (by show win0_6.index t (0 : Fin 2) * 512 + 1 * (j 0).val = t.val * 512 + (j 0).val; omega)
    (by show win0_6.index t (1 : Fin 2) * 2048 + 1 * (j 1).val = (j 1).val; omega)

variable (m : (ℓ : Loc nD τ sig) → Buf (Elt Ideal) ℓ)

/-- The region's result over the arrays as the region finds them. -/
def result (c : Dev nD) : FVec Ideal S16384x2048 .f32 :=
  regionArr (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))

/-- What point `t` writes back is its block of `result`. -/
theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after0_6]
  unfold iblk result
  exact flushed_of t (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))

/-- An index of the output array is in point `t`'s block iff each coordinate is in the block's range on its axis. -/
theorem mem_blk (t : Fin cfg0.N) (i : S16384x2048.Idx) :
    i ∈ ((cfg0.win 6).blk t).view.set ↔ ∀ a : Fin 2, win0_6.index t a * S512x2048.size a ≤ (i a).val
      ∧ (i a).val < win0_6.index t a * S512x2048.size a + S512x2048.size a := by
  show i ∈ ((View.whole main_v12).slice (win0_6.rect t)).set ↔ _
  rw [View.set_slice_whole, Rect.mem_set_unit]
  exact Iff.rfl

/-- Row `r` of the output is in the block of point `r / 512`. -/
theorem cover (i : S16384x2048.Idx) :
    ∃ t : Fin cfg0.N, (cfg0.win 6).flush t = true ∧ i ∈ ((cfg0.win 6).blk t).view.set := by
  have hi0 : (i 0).val < 16384 := (i 0).isLt
  have hi1 : (i 1).val < 2048 := (i 1).isLt
  obtain ⟨t, ht⟩ := idx_onto ⟨(i 0).val / 512, by omega⟩
  have q0 : win0_6.index t (0 : Fin 2) = (i 0).val / 512 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 2048 ≤ (i 1).val ∧ (i 1).val < win0_6.index t (1 : Fin 2) * 2048 + 2048; omega

/-- The output array after the region is `result`. -/
theorem final (c : Dev nD) : (dats m 0 c).arrAt 6 cfg0.N = result m c :=
  (dats m 0 c).arrAt_eq_of_cover 6 (result m c) (fun t _ => flushed_eq m c t) cover

end Cert.KernelIdeal.Blocks

end
-- ==== Proof.LibRegroup.lean ====
/-
  A row-major array regrouped without moving an element: adjacent axes merged into one, one axis split into
  two, a trailing unit axis added, and a trailing unit axis broadcast along a new extent. Each lemma reads the
  regrouped array at an index written by coordinates and names the operand's index by coordinates, the relation
  between them being the arithmetic of the row-major position: an axis of extent `g * l` is the pair
  `(u, v)`, `u < g`, `v < l`, at position `u * l + v`.
-/
import Idealize.ShloMosaic.Lib.Pipeline.Value
import Idealize.ShloMosaic.Lib.ValueIdx

namespace Idealize.ShloMosaic.Regroup

open Idealize.ShloMosaic Idealize.ShloMosaic.ValueIdx

variable {α : Type}

/-- The last axis of a matrix split in two: `[a, n] → [a, g, l]` with `n = g * l` reads, at `(q, u, v)`, the
    operand at `(q, u * l + v)`. -/
theorem shapeCast_splitLast_apply {a n g l : ℕ} (hn : n = g * l) (x : (⟨2, ![a, n]⟩ : Shape).Idx → α)
    (h : (⟨2, ![a, n]⟩ : Shape).ShapeCasts ⟨3, ![a, g, l]⟩) (q : Fin a) (u : Fin g) (v : Fin l) (k : Fin n)
    (hk : k.val = u.val * l + v.val) :
    shapeCast ⟨3, ![a, g, l]⟩ x h (ix3 q u v) = x (ix2 q k) :=
  shapeCast_apply x h _ _ (by
    rw [Shape.rowMajor_val_two, Shape.rowMajor_val_three]
    show q.val * n + k.val = (q.val * g + u.val) * l + v.val
    rw [hk, hn]; ring)

/-- The last two axes of a rank-3 array merged: `[a, g, l] → [a, n]` with `n = g * l` reads, at `(q, k)` with
    `k = u * l + v`, the operand at `(q, u, v)`. -/
theorem shapeCast_mergeLast_apply {a n g l : ℕ} (hn : n = g * l) (x : (⟨3, ![a, g, l]⟩ : Shape).Idx → α)
    (h : (⟨3, ![a, g, l]⟩ : Shape).ShapeCasts ⟨2, ![a, n]⟩) (q : Fin a) (k : Fin n) (u : Fin g) (v : Fin l)
    (hk : k.val = u.val * l + v.val) :
    shapeCast ⟨2, ![a, n]⟩ x h (ix2 q k) = x (ix3 q u v) :=
  shapeCast_apply x h _ _ (by
    rw [Shape.rowMajor_val_two, Shape.rowMajor_val_three]
    show (q.val * g + u.val) * l + v.val = q.val * n + k.val
    rw [hk, hn]; ring)

/-- The first two axes of a rank-3 array merged: `[b, s, n] → [r, n]` with `r = b * s` reads, at `(p, k)` with
    `p = i * s + j`, the operand at `(i, j, k)`. -/
theorem shapeCast_mergeFirst_apply {b s n r : ℕ} (x : (⟨3, ![b, s, n]⟩ : Shape).Idx → α)
    (h : (⟨3, ![b, s, n]⟩ : Shape).ShapeCasts ⟨2, ![r, n]⟩) (p : Fin r) (k : Fin n) (i : Fin b) (j : Fin s)
    (hp : p.val = i.val * s + j.val) :
    shapeCast ⟨2, ![r, n]⟩ x h (ix2 p k) = x (ix3 i j k) :=
  shapeCast_apply x h _ _ (by
    rw [Shape.rowMajor_val_two, Shape.rowMajor_val_three]
    show (i.val * s + j.val) * n + k.val = p.val * n + k.val
    rw [hp])

/-- The first axis of a matrix split in two: `[r, n] → [b, s, n]` with `r = b * s` reads, at `(i, j, k)`, the
    operand at `(i * s + j, k)`. -/
theorem shapeCast_splitFirst_apply {b s n r : ℕ} (x : (⟨2, ![r, n]⟩ : Shape).Idx → α)
    (h : (⟨2, ![r, n]⟩ : Shape).ShapeCasts ⟨3, ![b, s, n]⟩) (i : Fin b) (j : Fin s) (k : Fin n) (p : Fin r)
    (hp : p.val = i.val * s + j.val) :
    shapeCast ⟨3, ![b, s, n]⟩ x h (ix3 i j k) = x (ix2 p k) :=
  shapeCast_apply x h _ _ (by
    rw [Shape.rowMajor_val_two, Shape.rowMajor_val_three]
    show p.val * n + k.val = (i.val * s + j.val) * n + k.val
    rw [hp])

/-- A vector cut into rows: `[n] → [a, g]` reads, at `(o, u)`, the operand at `o * g + u`. -/
theorem shapeCast_rows_apply {n a g : ℕ} (x : (⟨1, ![n]⟩ : Shape).Idx → α)
    (h : (⟨1, ![n]⟩ : Shape).ShapeCasts ⟨2, ![a, g]⟩) (o : Fin a) (u : Fin g) (k : Fin n)
    (hk : k.val = o.val * g + u.val) :
    shapeCast ⟨2, ![a, g]⟩ x h (ix2 o u) = x (ix1 k) :=
  shapeCast_apply x h _ _ (by
    rw [Shape.rowMajor_val_two, Shape.rowMajor_val_one]
    show k.val = o.val * g + u.val
    exact hk)

/-- A trailing unit axis added to a matrix: `[a, g] → [a, g, 1]` reads, at `(q, u, w)`, the operand at `(q, u)`. -/
theorem shapeCast_trailingUnit_apply {a g : ℕ} (x : (⟨2, ![a, g]⟩ : Shape).Idx → α)
    (h : (⟨2, ![a, g]⟩ : Shape).ShapeCasts ⟨3, ![a, g, 1]⟩) (q : Fin a) (u : Fin g) (w : Fin 1) :
    shapeCast ⟨3, ![a, g, 1]⟩ x h (ix3 q u w) = x (ix2 q u) :=
  shapeCast_apply x h _ _ (by
    have hw : w.val = 0 := by omega
    rw [Shape.rowMajor_val_two, Shape.rowMajor_val_three]
    show q.val * g + u.val = (q.val * g + u.val) * 1 + w.val
    rw [hw, Nat.mul_one, Nat.add_zero])

/-- A trailing unit axis broadcast along a new extent: `[a, g, 1] → [a, g, l]` reads, at `(q, u, v)`, the
    operand's one entry `(q, u, 0)` of that column. -/
theorem broadcastTo_trailingUnit_apply {a g l : ℕ} (x : (⟨3, ![a, g, 1]⟩ : Shape).Idx → α)
    (h : (⟨3, ![a, g, 1]⟩ : Shape).Broadcasts ⟨3, ![a, g, l]⟩) (q : Fin a) (u : Fin g) (v : Fin l) :
    broadcastTo ⟨3, ![a, g, l]⟩ x h (ix3 q u v) = x (ix3 q u (0 : Fin 1)) := by
  refine broadcastTo_apply x h (ix3 q u v) (ix3 q u (0 : Fin 1)) fun ax => ?_
  match ax with
  | ⟨0, _⟩ =>
    show q.val = if a = 1 then 0 else q.val
    split
    · have := q.isLt; omega
    · rfl
  | ⟨1, _⟩ =>
    show u.val = if g = 1 then 0 else u.val
    split
    · have := u.isLt; omega
    · rfl
  | ⟨2, _⟩ => rfl

end Idealize.ShloMosaic.Regroup
-- ==== Proof.KernelRun.lean ====
/-
  The kernel program's run, read: its result array is the layer's specification of its arguments.

  Before the region the host reshapes the input to 16384 rows, takes the sign of the weight matrix, transposes it and
  rounds it to the shorter float format (the identity on the extended reals), multiplies the matrix's largest absolute
  entry into `gamma`, and views the four vectors as one-row matrices. After the region it reshapes the 16384 × 2048
  result back to 8 × 2048 × 2048. Reading each of these at an index by coordinates: row 2048·i + j of the reshaped input is
  row (i, j) of the input, column `o` of the transposed sign matrix is row `o` of the sign matrix, entry `o` of the scale row
  is the largest absolute entry times `gamma o`. So entry (i, j, o) of the result is `BitLinear.layer` at (i, j, o).
-/
import proofs.«161648_j86689619903495_2_alg».proof.Proof.KernelBlocks
import proofs.«161648_j86689619903495_2_alg».proof.Proof.LibRegroup
import Idealize.ShloMosaic.Lib.ValueLayout
import Idealize.ShloMosaic.Lib.StableHlo.Run

noncomputable section

namespace Cert.KernelIdeal.Run

open Cert.KernelIdeal Cert.KernelIdeal.Gen Cert.KernelIdeal.Blocks Idealize.ShloMosaic Idealize.ShloMosaic.TcCoe Idealize.SL.Sem
open Idealize.ShloMosaic.StableHlo Idealize.ShloMosaic.ValueIdx Cert.BitLinear

/-! ## The region's operands and result, read by coordinates -/

/-- Entry (p, o) of the region's result over the host-prepared operands, with p = 2048·i + j, is the layer's entry (i, j, o). -/
theorem region_layer (x : FVec Ideal S8x2048x2048 .f32) (w : FVec Ideal S2048x2048 .f32) (g be lw lb : FVec Ideal S2048 .f32)
    (i : Fin 8) (j : Fin 2048) (o : Fin 2048) (p : Fin 16384) (hp : p.val = i.val * 2048 + j.val) :
    regionAt (shapeCast S16384x2048 x shapeCasts_S8x2048x2048_S16384x2048) (shapeCast S1x2048 lw shapeCasts_S2048_S1x2048)
      (shapeCast S1x2048 lb shapeCasts_S2048_S1x2048)
      (truncf .bf16 (transpose S2048x2048 [1, 0] (Host.sign w) transposes_S2048x2048_S2048x2048_1_0) bitsLt_bf16_f32)
      (shapeCast S1x2048 (mulf (broadcastInDim S2048 ![] bcast_S_S2048
        (Host.reduce FloatOps.maximumf (Host.absf w) (constant (F := Ideal) S_ .f32 0xFF800000#32) reducesTo_S2048x2048_S_d0_1 h_S_)) g)
        shapeCasts_S2048_S1x2048)
      (shapeCast S1x2048 be shapeCasts_S2048_S1x2048) p o
    = layer x (Host.sign w) g be lw lb (absmax w) i j o := by
  unfold regionAt layer
  have e0 : ∀ k : Fin 2048, shapeCast S16384x2048 x shapeCasts_S8x2048x2048_S16384x2048 (ix2 p k) = x (ix3 i j k) :=
    fun k => Regroup.shapeCast_mergeFirst_apply x _ p k i j hp
  have e1 : ∀ k : Fin 2048, shapeCast S1x2048 lw shapeCasts_S2048_S1x2048 (ix2 (0 : Fin 1) k) = lw (ix1 k) :=
    fun k => shapeCast_a_1a_apply lw _ 0 k
  have e2 : ∀ k : Fin 2048, shapeCast S1x2048 lb shapeCasts_S2048_S1x2048 (ix2 (0 : Fin 1) k) = lb (ix1 k) :=
    fun k => shapeCast_a_1a_apply lb _ 0 k
  have e3 : ∀ k : Fin 2048, (truncf .bf16 (transpose S2048x2048 [1, 0] (Host.sign w) transposes_S2048x2048_S2048x2048_1_0)
      bitsLt_bf16_f32 : FVec Ideal S2048x2048 .bf16) (ix2 k o) = Host.sign w (ix2 o k) :=
    fun k => transpose_ix2_apply (Host.sign w) _ k o
  have e4 : shapeCast S1x2048 (mulf (broadcastInDim S2048 ![] bcast_S_S2048
        (Host.reduce FloatOps.maximumf (Host.absf w) (constant (F := Ideal) S_ .f32 0xFF800000#32) reducesTo_S2048x2048_S_d0_1 h_S_)) g)
        shapeCasts_S2048_S1x2048 (ix2 (0 : Fin 1) o) = absmax w * g (ix1 o) := by
    have hmul : ∀ A : FVec Ideal S2048 .f32, mulf A g (ix1 o) = A (ix1 o) * g (ix1 o) := fun _ => rfl
    refine ((shapeCast_a_1a_apply _ _ 0 o).trans (hmul _)).trans (congrArg (· * g (ix1 o)) ?_)
    exact (broadcastInDim_apply _ bcast_S_S2048 _ (ix1 o) ix0 (fun a => a.elim0)).trans rfl
  have e5 : shapeCast S1x2048 be shapeCasts_S2048_S1x2048 (ix2 (0 : Fin 1) o) = be (ix1 o) := shapeCast_a_1a_apply be _ 0 o
  simp only [e0, e1, e2, e3, e4, e5]

variable (m : (ℓ : Loc nD τ sig) → Buf (Elt Ideal) ℓ) (ρ : Dev nD → PrngReg)

/-! ## The arrays the region finds: the host operations before it -/

theorem V0_eq (c : Dev nD) : (V m c (Pipeline.arrRef spec0 0) : FVec Ideal S16384x2048 .f32)
    = shapeCast S16384x2048 (m ((c : Thread nD τ).loc main_arg0)) shapeCasts_S8x2048x2048_S16384x2048 := by
  show StableHlo.after hostOps0 (fun b => m (c, b)) (Proc.devRef .tc main_v0) = _
  after_results
  rfl
theorem V1_eq (c : Dev nD) : (V m c (Pipeline.arrRef spec0 1) : FVec Ideal S1x2048 .f32)
    = shapeCast S1x2048 (m ((c : Thread nD τ).loc main_arg4)) shapeCasts_S2048_S1x2048 := by
  show StableHlo.after hostOps0 (fun b => m (c, b)) (Proc.devRef .tc main_v10) = _
  after_results
  rfl
theorem V2_eq (c : Dev nD) : (V m c (Pipeline.arrRef spec0 2) : FVec Ideal S1x2048 .f32)
    = shapeCast S1x2048 (m ((c : Thread nD τ).loc main_arg5)) shapeCasts_S2048_S1x2048 := by
  show StableHlo.after hostOps0 (fun b => m (c, b)) (Proc.devRef .tc main_v11) = _
  after_results
  rfl
theorem V3_eq (c : Dev nD) : (V m c (Pipeline.arrRef spec0 3) : FVec Ideal S2048x2048 .bf16)
    = (truncf .bf16 (transpose S2048x2048 [1, 0] (Host.sign (m ((c : Thread nD τ).loc main_arg1))) transposes_S2048x2048_S2048x2048_1_0)
        bitsLt_bf16_f32 : FVec Ideal S2048x2048 .bf16) := by
  show StableHlo.after hostOps0 (fun b => m (c, b)) (Proc.devRef .tc main_v3) = _
  after_results
theorem V4_eq (c : Dev nD) : (V m c (Pipeline.arrRef spec0 4) : FVec Ideal S1x2048 .f32)
    = shapeCast S1x2048 (mulf (broadcastInDim S2048 ![] bcast_S_S2048
        (Host.reduce FloatOps.maximumf (Host.absf (m ((c : Thread nD τ).loc main_arg1))) (constant (F := Ideal) S_ .f32 0xFF800000#32)
          reducesTo_S2048x2048_S_d0_1 h_S_)) (m ((c : Thread nD τ).loc main_arg2))) shapeCasts_S2048_S1x2048 := by
  show StableHlo.after hostOps0 (fun b => m (c, b)) (Proc.devRef .tc main_v8) = _
  after_results
  rfl
theorem V5_eq (c : Dev nD) : (V m c (Pipeline.arrRef spec0 5) : FVec Ideal S1x2048 .f32)
    = shapeCast S1x2048 (m ((c : Thread nD τ).loc main_arg3)) shapeCasts_S2048_S1x2048 := by
  show StableHlo.after hostOps0 (fun b => m (c, b)) (Proc.devRef .tc main_v9) = _
  after_results
  rfl

/-! ## The host operation after the region -/

/-- The program's result buffer after the run: the region's output array, reshaped. -/
theorem tail_eq (c : Dev nD) :
    (Pipeline.afterTail₀ cfgs (dats m) 0 (V0 m) [hostOps1] c main_v13 : FVec Ideal S8x2048x2048 .f32)
      = shapeCast S8x2048x2048 ((dats m 0 c).arrAt 6 cfg0.N) shapeCasts_S16384x2048_S8x2048x2048 := by
  unfold Pipeline.afterTail₀
  show StableHlo.after hostOps1 _ (Proc.devRef .tc main_v13) = _
  after_results
  have e : (Pipeline.withArrays (cfgs 0).spec c (V0 m c) (fun w => (dats m 0 c).arrAt w (cfgs 0).N) (Proc.devRef .tc main_v12)
      : FVec Ideal S16384x2048 .f32) = (dats m 0 c).arrAt 6 cfg0.N :=
    Pipeline.withArrays_arr spec0 launch0.win.arr_inj c (V0 m c) _ 6
  rw [e]
  rfl

/-! ## The result, and the run -/

/-- The region's result, reshaped to 8 × 2048 × 2048, is the layer's array of the program's arguments. -/
theorem value (c : Dev nD) :
    shapeCast S8x2048x2048 (result m c) shapeCasts_S16384x2048_S8x2048x2048
      = layerArr (m ((c : Thread nD τ).loc main_arg0)) (Host.sign (m ((c : Thread nD τ).loc main_arg1)))
          (m ((c : Thread nD τ).loc main_arg2)) (m ((c : Thread nD τ).loc main_arg3)) (m ((c : Thread nD τ).loc main_arg4))
          (m ((c : Thread nD τ).loc main_arg5)) (absmax (m ((c : Thread nD τ).loc main_arg1))) := by
  funext i
  obtain ⟨a, b, o, rfl⟩ : ∃ (a : Fin 8) (b : Fin 2048) (o : Fin 2048), i = ix3 a b o := ⟨i 0, i 1, i 2, eq_ix3 i⟩
  have hp : a.val * 2048 + b.val < 16384 := by have := a.isLt; have := b.isLt; omega
  refine (Regroup.shapeCast_splitFirst_apply (result m c) _ a b o ⟨a.val * 2048 + b.val, hp⟩ rfl).trans ?_
  unfold result regionArr layerArr
  rw [V0_eq, V1_eq, V2_eq, V3_eq, V4_eq, V5_eq]
  exact region_layer _ _ _ _ _ _ a b o ⟨a.val * 2048 + b.val, hp⟩ rfl

/-- Every weakly fair execution of the kernel program terminates with its result at the layer's array of its arguments, the
    arguments unchanged. -/
theorem run : θ_run defs (onTc (τ := τ) (main (F := Ideal))) ⟨m, fun _ => 0, ρ⟩ fun r => ∀ c : Dev nD,
      r.2.mem ((c.tc : Thread nD τ).loc main_v13)
        = layerArr (m ((c.tc : Thread nD τ).loc main_arg0)) (Host.sign (m ((c.tc : Thread nD τ).loc main_arg1)))
            (m ((c.tc : Thread nD τ).loc main_arg2)) (m ((c.tc : Thread nD τ).loc main_arg3)) (m ((c.tc : Thread nD τ).loc main_arg4))
            (m ((c.tc : Thread nD τ).loc main_arg5)) (absmax (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨
      (((h c).2 main_v13 (Pipeline.mem_restRefs_of main_v13 (by decide) (by decide))).trans (tail_eq m c)).trans
        ((congrArg (fun z : FVec Ideal S16384x2048 .f32 => shapeCast S8x2048x2048 z shapeCasts_S16384x2048_S8x2048x2048) (final m c)).trans
          (value m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Run

end
-- ==== Proof.RefSide.lean ====
/-
  The reference, read entry by entry: its result at (i, j, o) is `BitLinear.layer` of its arguments.

  The reference normalises every row (i, j) of the 8 × 2048 × 2048 input over its last axis (host sums from zero, divided by
  the float 2048; the reciprocal square root of the variance plus the offset), scales and shifts by the two normalisation
  vectors, contracts the last axis with the last axis of the sign matrix, and multiplies the product by the matrix's
  largest absolute entry and then by `gamma`, entry by entry, before adding `beta`. The layer's specification multiplies
  by the product of the scale and `gamma` instead: multiplication of extended reals is associative, so the two agree at
  every value, infinite ones included.
-/
import proofs.«161648_j86689619903495_2_alg».proof.Proof.Gen.ReferenceIdeal.Read
import proofs.«161648_j86689619903495_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.BitLinear

variable (x0 : FVec Ideal S8x2048x2048 .f32) (x1 : FVec Ideal S2048x2048 .f32) (x2 x3 x4 x5 : FVec Ideal S2048 .f32)

/-! ## The composed index maps, by coordinates -/

theorem idx_sum0 (i : Fin 8) (j : Fin 2048) (u : Fin 1) (k : Fin 2048) :
    idx_main_v0 (idx_main_v1 (ix3 i j u)) k = ix3 i j k :=
  funext fun a => Fin.ext (by match a with | ⟨0, _⟩ => rfl | ⟨1, _⟩ => rfl | ⟨2, _⟩ => rfl)
theorem idx_sum7 (i : Fin 8) (j : Fin 2048) (u : Fin 1) (k : Fin 2048) :
    idx_main_v7 (idx_main_v8 (ix3 i j u)) k = ix3 i j k :=
  funext fun a => Fin.ext (by match a with | ⟨0, _⟩ => rfl | ⟨1, _⟩ => rfl | ⟨2, _⟩ => rfl)
theorem idx_col4 (i : Fin 8) (j : Fin 2048) (k : Fin 2048) : idx_main_v4 (ix3 i j k) = ix3 i j (0 : Fin 1) :=
  funext fun a => Fin.ext (by match a with | ⟨0, _⟩ => rfl | ⟨1, _⟩ => rfl | ⟨2, _⟩ => rfl)
theorem idx_col11 (i : Fin 8) (j : Fin 2048) (k : Fin 2048) : idx_main_v11 (ix3 i j k) = ix3 i j (0 : Fin 1) :=
  funext fun a => Fin.ext (by match a with | ⟨0, _⟩ => rfl | ⟨1, _⟩ => rfl | ⟨2, _⟩ => rfl)
theorem idx_col16 (i : Fin 8) (j : Fin 2048) (k : Fin 2048) : idx_main_v16 (ix3 i j k) = ix3 i j (0 : Fin 1) :=
  funext fun a => Fin.ext (by match a with | ⟨0, _⟩ => rfl | ⟨1, _⟩ => rfl | ⟨2, _⟩ => rfl)
theorem idx_vec19 (i : Fin 8) (j : Fin 2048) (k : Fin 2048) : idx_main_v18 (idx_main_v19 (ix3 i j k)) = ix1 k :=
  funext fun a => Fin.ext (by match a with | ⟨0, _⟩ => rfl)
theorem idx_vec22 (i : Fin 8) (j : Fin 2048) (k : Fin 2048) : idx_main_v21 (idx_main_v22 (ix3 i j k)) = ix1 k :=
  funext fun a => Fin.ext (by match a with | ⟨0, _⟩ => rfl)
theorem idx_vec31 (i : Fin 8) (j : Fin 2048) (k : Fin 2048) : idx_main_v30 (idx_main_v31 (ix3 i j k)) = ix1 k :=
  funext fun a => Fin.ext (by match a with | ⟨0, _⟩ => rfl)
theorem idx_vec34 (i : Fin 8) (j : Fin 2048) (k : Fin 2048) : idx_main_v33 (idx_main_v34 (ix3 i j k)) = ix1 k :=
  funext fun a => Fin.ext (by match a with | ⟨0, _⟩ => rfl)
theorem idx_lhs (i : Fin 8) (j : Fin 2048) (o : Fin 2048) (k : Fin 2048) : lidx_main_v27 (ix3 i j o) k = ix3 i j k :=
  funext fun a => Fin.ext (by match a with | ⟨0, _⟩ => rfl | ⟨1, _⟩ => rfl | ⟨2, _⟩ => rfl)
theorem idx_rhs (i : Fin 8) (j : Fin 2048) (o : Fin 2048) (k : Fin 2048) : ridx_main_v27 (ix3 i j o) k = ix2 o k :=
  funext fun a => Fin.ext (by match a with | ⟨0, _⟩ => rfl | ⟨1, _⟩ => rfl)

/-! ## The row statistics -/

/-- The mean column at row (i, j) is the mean of that row. -/
theorem mean_ref (i : Fin 8) (j : Fin 2048) (u : Fin 1) :
    val_main_v3 (F := Ideal) x0 (ix3 i j u) = mean (fun k => x0 (ix3 i j k)) := by
  rw [val_main_v3_apply, val_main_v1_apply, val_main_v0_apply, val_main_v2_apply, val_main_cst_0_apply, val_main_cst_apply]
  unfold mean
  show Ideal.div (Ideal.ofBits .f32 0x00000000#32 + ∑ k : Fin 2048, x0 (idx_main_v0 (idx_main_v1 (ix3 i j u)) k))
      (Ideal.ofBits .f32 0x45000000#32) = _
  rw [Ideal.ofBits_zero_f32, zero_add]
  simp only [idx_sum0]

/-- The first centred array at (i, j, k). -/
theorem cen5_ref (i : Fin 8) (j : Fin 2048) (k : Fin 2048) :
    val_main_v5 (F := Ideal) x0 (ix3 i j k) = x0 (ix3 i j k) - mean (fun k => x0 (ix3 i j k)) := by
  rw [val_main_v5_apply, val_main_v4_apply, idx_col4, mean_ref]
  rfl

/-- The second centred array (the same subtraction, printed twice) at (i, j, k). -/
theorem cen12_ref (i : Fin 8) (j : Fin 2048) (k : Fin 2048) :
    val_main_v12 (F := Ideal) x0 (ix3 i j k) = x0 (ix3 i j k) - mean (fun k => x0 (ix3 i j k)) := by
  rw [val_main_v12_apply, val_main_v11_apply, idx_col11, mean_ref]
  rfl

/-- The variance column at row (i, j) is the variance of that row. -/
theorem var_ref (i : Fin 8) (j : Fin 2048) (u : Fin 1) :
    val_main_v10 (F := Ideal) x0 (ix3 i j u) = var (fun k => x0 (ix3 i j k)) := by
  rw [val_main_v10_apply, val_main_v8_apply, val_main_v7_apply, val_main_v9_apply, val_main_cst_2_apply, val_main_cst_1_apply]
  unfold var
  show Ideal.div (Ideal.ofBits .f32 0x00000000#32 + ∑ k : Fin 2048, val_main_v6 (F := Ideal) x0 (idx_main_v7 (idx_main_v8 (ix3 i j u)) k))
      (Ideal.ofBits .f32 0x45000000#32) = _
  rw [Ideal.ofBits_zero_f32, zero_add]
  refine congrArg (fun z => Ideal.div z _) (Finset.sum_congr rfl fun k _ => ?_)
  rw [idx_sum7, val_main_v6_apply, cen5_ref]
  rfl

/-- The reciprocal standard deviation column at row (i, j). -/
theorem istd_ref (i : Fin 8) (j : Fin 2048) (u : Fin 1) :
    val_main_v15 (F := Ideal) x0 (ix3 i j u) = istd (fun k => x0 (ix3 i j k)) := by
  rw [val_main_v15_apply, val_main_v14_apply, var_ref, val_main_v13_apply, val_main_cst_3_apply]
  rfl

/-- The normalised array at (i, j, k) is entry `k` of the normalised row (i, j). -/
theorem normed_ref (i : Fin 8) (j : Fin 2048) (k : Fin 2048) :
    val_main_v23 (F := Ideal) x0 x4 x5 (ix3 i j k)
      = normed (fun k => x0 (ix3 i j k)) (fun k => x4 (ix1 k)) (fun k => x5 (ix1 k)) k := by
  rw [val_main_v23_apply, val_main_v20_apply, val_main_v17_apply, cen12_ref, val_main_v16_apply, idx_col16, istd_ref,
    val_main_v19_apply, val_main_v18_apply, idx_vec19, val_main_v22_apply, val_main_v21_apply, idx_vec22]
  rfl

/-! ## The result -/

/-- The scalar the reference multiplies by is the matrix's largest absolute entry. -/
theorem scale_ref (j : S_.Idx) : val_main_v26 (F := Ideal) x1 j = absmax x1 := by
  rw [eq_ix0 j]
  rfl

/-- The reference's result at (i, j, o) is the layer's. -/
theorem result_ref (i : Fin 8) (j : Fin 2048) (o : Fin 2048) :
    val_main_v35 (F := Ideal) x0 x1 x2 x3 x4 x5 (ix3 i j o) = layer x0 (Host.sign x1) x2 x3 x4 x5 (absmax x1) i j o := by
  rw [val_main_v35_apply, val_main_v32_apply, val_main_v29_apply, val_main_v27_apply, val_main_v28_apply, scale_ref,
    val_main_v31_apply, val_main_v30_apply, idx_vec31, val_main_v34_apply, val_main_v33_apply, idx_vec34]
  unfold layer out proj
  show (∑ k : Fin 2048, val_main_v23 (F := Ideal) x0 x4 x5 (lidx_main_v27 (ix3 i j o) k) * val_main_v24 (F := Ideal) x1 (ridx_main_v27 (ix3 i j o) k))
      * absmax x1 * x2 (ix1 o) + x3 (ix1 o) = _
  rw [mul_assoc]
  refine congrArg (fun z => z * _ + _) (Finset.sum_congr rfl fun k _ => ?_)
  rw [idx_lhs, idx_rhs, normed_ref]
  rfl

/-- So the reference's result array is the layer's. -/
theorem result_arr : val_main_v35 (F := Ideal) x0 x1 x2 x3 x4 x5 = layerArr x0 (Host.sign x1) x2 x3 x4 x5 (absmax x1) := by
  funext i
  obtain ⟨a, b, o, rfl⟩ : ∃ (a : Fin 8) (b : Fin 2048) (o : Fin 2048), i = ix3 a b o := ⟨i 0, i 1, i 2, eq_ix3 i⟩
  exact result_ref x0 x1 x2 x3 x4 x5 a b o

end Cert.ReferenceIdeal.RefValue

end
-- ==== Proof.lean ====
/-
  The certificate of the bit-linear layer kernel against its reference.

  Both programs compute, at every output entry (i, j, o), the same function of their arguments on the extended reals
  (`BitLinear.layer`): row (i, j) of the input, normalised over its 2048 entries and scaled and shifted by the two
  normalisation vectors, is contracted with row `o` of the sign of the weight matrix; the product is scaled by the matrix's
  largest absolute entry and by `gamma o`, and `beta o` is added. The kernel program does it on 32 blocks of 512 rows of the
  input reshaped to 16384 rows, against the transposed sign matrix, with the scale folded into `gamma` beforehand
  (`Cert.KernelIdeal.Run.run`); the reference does it on the whole array and multiplies by the scale and by `gamma` in turn
  (`Cert.ReferenceIdeal.RefValue.result_arr`). The only law between the two is the associativity of the product of extended
  reals, which needs no finiteness: the precondition is not used. The three frames are the generated ones (the reference's is
  its generated run with the result dropped); the idealisation rewrote nothing, so `preserves` is trivial.
-/
import proofs.«161648_j86689619903495_2_alg».proof.Defs
import proofs.«161648_j86689619903495_2_alg».proof.Proof.Gen.Kernel
import proofs.«161648_j86689619903495_2_alg».proof.Proof.Gen.Kernel.Frame
import proofs.«161648_j86689619903495_2_alg».proof.Proof.Gen.KernelIdeal
import proofs.«161648_j86689619903495_2_alg».proof.Proof.Gen.KernelIdeal.Frame
import proofs.«161648_j86689619903495_2_alg».proof.Proof.Gen.ReferenceIdeal
import proofs.«161648_j86689619903495_2_alg».proof.Proof.Gen.Pre_finite_inputs
import proofs.«161648_j86689619903495_2_alg».proof.Proof.Gen.ReferenceIdeal.Run
import proofs.«161648_j86689619903495_2_alg».proof.Proof.Gen.ReferenceIdeal.Read
import proofs.«161648_j86689619903495_2_alg».proof.Proof.KernelRun
import proofs.«161648_j86689619903495_2_alg».proof.Proof.RefSide
import Idealize.ShloMosaic.Adequacy
import Idealize.ShloMosaic.Init

noncomputable section

namespace Cert.Proof

open Idealize.ShloMosaic Idealize.SL.Sem Cert.BitLinear

/-- The word-level kernel program runs and keeps its arguments. -/
theorem frame_kernel : Cert.frame_Kernel := fun m ρ _ => Cert.Kernel.Gen.frame m ρ

/-- The idealised kernel program runs and keeps its arguments. -/
theorem frame_kernelIdeal : Cert.frame_KernelIdeal := fun m ρ _ => Cert.KernelIdeal.Gen.frame m ρ

/-- The idealised reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the arguments both idealised programs end with the layer's array of those arguments. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RefValue.result_arr,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
